-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x100 : Shape := ⟨2, ![1000000, 100]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1000000x100 : S_.BroadcastsInDim S1000000x100 (![] : Fin 0 → Fin S1000000x100.rank)
  reducesTo_S1000000x100_S_d0_1 : S1000000x100.ReducesTo [0, 1] S_

variable [Facts]

def fn_part1 {F : FTy → Type} [FloatOps F] (main_v13 : IVec S_ 1) (main_v16 : IVec S1000000x100 1) : IVec S_ 1 :=
  let main_c_5 : IVec S_ 1 := constantI S_ 1 1#1
  let main_v17 : IVec S_ 1 := (fun x v => Host.reduce IntOp.andi x v reducesTo_S1000000x100_S_d0_1 h_S_) main_v16 main_c_5
  let main_v18 : IVec S_ 1 := andi main_v13 main_v17
  main_v18

def fn {F : FTy → Type} [FloatOps F] (main_arg0 : FVec F S1000000 .f32) (main_arg1 : FVec F S1000000 .f32) (main_arg2 : FVec F S1000000 .f32) (main_arg3 : FVec F S1000000x100 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000x100 .f32 := Host.absf main_arg3
  let main_cst_4 : FVec F S_ .f32 := constant S_ .f32 0x7F800000#32
  let main_v15 : FVec F S1000000x100 .f32 := broadcastInDim S1000000x100 ![] bcast_S_S1000000x100 main_cst_4
  let main_v16 : IVec S1000000x100 1 := cmpf .olt main_v14 main_v15
  fn_part1 (F := F) main_v13 main_v16
-- ==== Kernel.lean ====
abbrev S1000000 : Shape := ⟨1, ![1000000]⟩
abbrev S1000000x100 : Shape := ⟨2, ![1000000, 100]⟩
abbrev S_ : Shape := ⟨0, ![]⟩
abbrev S1003520 : Shape := ⟨1, ![1003520]⟩
abbrev S1003520x100 : Shape := ⟨2, ![1003520, 100]⟩
abbrev S2x1x1 : Shape := ⟨3, ![2, 1, 1]⟩
abbrev S10240 : Shape := ⟨1, ![10240]⟩
abbrev S10240x100 : Shape := ⟨2, ![10240, 100]⟩
abbrev S1x1x1 : Shape := ⟨3, ![1, 1, 1]⟩
abbrev S10240x1 : Shape := ⟨2, ![10240, 1]⟩
abbrev S1x10240 : Shape := ⟨2, ![1, 10240]⟩
abbrev S1 : Shape := ⟨1, ![1]⟩
abbrev S1x1 : Shape := ⟨2, ![1, 1]⟩

abbrev nBuf : Space → Nat
  | .hbm => 21
  | .vmem => 11
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000x100, .f32⟩
  | .hbm, ⟨4, _⟩ => ⟨S_, .i32⟩
  | .hbm, ⟨5, _⟩ => ⟨S_, .f32⟩
  | .hbm, ⟨6, _⟩ => ⟨S1003520, .f32⟩
  | .hbm, ⟨7, _⟩ => ⟨S_, .i32⟩
  | .hbm, ⟨8, _⟩ => ⟨S_, .f32⟩
  | .hbm, ⟨9, _⟩ => ⟨S1003520, .f32⟩
  | .hbm, ⟨10, _⟩ => ⟨S_, .i32⟩
  | .hbm, ⟨11, _⟩ => ⟨S_, .f32⟩
  | .hbm, ⟨12, _⟩ => ⟨S1003520, .f32⟩
  | .hbm, ⟨13, _⟩ => ⟨S_, .i32⟩
  | .hbm, ⟨14, _⟩ => ⟨S_, .f32⟩
  | .hbm, ⟨15, _⟩ => ⟨S1003520x100, .f32⟩
  | .hbm, ⟨16, _⟩ => ⟨S2x1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S10240, .f32⟩
  | .local _ .vmem, ⟨1, _⟩ => ⟨S10240, .f32⟩
  | .local _ .vmem, ⟨2, _⟩ => ⟨S10240, .f32⟩
  | .local _ .vmem, ⟨3, _⟩ => ⟨S10240, .f32⟩
  | .local _ .vmem, ⟨4, _⟩ => ⟨S10240, .f32⟩
  | .local _ .vmem, ⟨5, _⟩ => ⟨S10240, .f32⟩
  | .local _ .vmem, ⟨6, _⟩ => ⟨S10240x100, .f32⟩
  | .local _ .vmem, ⟨7, _⟩ => ⟨S10240x100, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v58 : BitVec 1 := Scalar.cmpi .eq arg1 c48_i32
  let v59 : BitVec 32 := Scalar.extui v58
  let c0_i32_18 : BitVec 32 := 0#32
  let v60 : BitVec 1 := Scalar.cmpi .ne v59 c0_i32_18
  v60

def cc0_transform_0 (i : grid0.Coords) : Fin 1 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S10240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S10240x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S1000000_S1003520_035200 : S1000000.Pads (![0] : Fin 1 → Nat) ![3520] ![0] S1003520
  h_S_ : 0 < S_.numel
  pads_S1000000x100_S1003520x100_035200_000 : S1000000x100.Pads (![0, 0] : Fin 2 → Nat) ![3520, 0] ![0, 0] S1003520x100
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S10240_S10240_0 : ∀ a, (![0] : Fin 1 → Nat) a + S10240.size a ≤ S10240.size a
  h_S10240 : 0 < S10240.numel
  shapeCasts_S10240_S10240 : S10240.ShapeCasts S10240
  inb_S10240x100_S10240x100_0_0 : ∀ a, (![0, 0] : Fin 2 → Nat) a + S10240x100.size a ≤ S10240x100.size a
  h_S10240x100 : 0 < S10240x100.numel
  shapeCasts_S10240x100_S10240x100 : S10240x100.ShapeCasts S10240x100
  shapeCasts_S10240_S10240x1 : S10240.ShapeCasts S10240x1
  broadcasts_S10240x1_S10240x100 : S10240x1.Broadcasts S10240x100
  reduces_S10240x100_S10240 : S10240x100.Reduces [1] S10240
  iota_S1x10240_d1_w32 : S1x10240.Iotas .tc 32 [1]
  shapeCasts_S1x10240_S10240 : S1x10240.ShapeCasts S10240
  natLt_1_32 : 1 < 32
  shapeCasts_S10240_S1x10240 : S10240.ShapeCasts S1x10240
  reduces_S1x10240_S1 : S1x10240.Reduces [1] S1
  shapeCasts_S1_S1x1 : S1.ShapeCasts S1x1
  inpos_S1x1_p0_0 : ∀ a, (![0, 0] : Fin 2 → Nat) a < S1x1.size a
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10240.size a ≤ S1003520.size a
  hwx0_0 : ∀ i : grid0.Coords, EltTy.bits .f32 = 32 ∨ (Rect.block (s := S1003520) S10240.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10240.size a ≤ S1003520.size a
  hwx0_1 : ∀ i : grid0.Coords, EltTy.bits .f32 = 32 ∨ (Rect.block (s := S1003520) S10240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10240.size a ≤ S1003520.size a
  hwx0_2 : ∀ i : grid0.Coords, EltTy.bits .f32 = 32 ∨ (Rect.block (s := S1003520) S10240.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10240x100.size a ≤ S1003520x100.size a
  hwx0_3 : ∀ i : grid0.Coords, EltTy.bits .f32 = 32 ∨ (Rect.block (s := S1003520x100) S10240x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_v0) S10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10240.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10240.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S10240x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1000000 : Shape := ⟨1, ![1000000]⟩
abbrev S1000000x100 : Shape := ⟨2, ![1000000, 100]⟩
abbrev S1000000x1 : Shape := ⟨2, ![1000000, 1]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000x100, .f32⟩
  | .hbm, ⟨4, _⟩ => ⟨S1000000x1, .f32⟩
  | .hbm, ⟨5, _⟩ => ⟨S1000000x1, .f32⟩
  | .hbm, ⟨6, _⟩ => ⟨S1000000x100, .f32⟩
  | .hbm, ⟨7, _⟩ => ⟨S1000000x100, .f32⟩
  | .hbm, ⟨8, _⟩ => ⟨S1000000x100, .f32⟩
  | .hbm, ⟨9, _⟩ => ⟨S1000000x100, .f32⟩
  | .hbm, ⟨10, _⟩ => ⟨S1000000x100, .f32⟩
  | .hbm, ⟨11, _⟩ => ⟨S1000000x100, .f32⟩
  | .hbm, ⟨12, _⟩ => ⟨S_, .f32⟩
  | .hbm, ⟨13, _⟩ => ⟨S1000000x100, .f32⟩
  | .hbm, ⟨14, _⟩ => ⟨S1000000x100, .f32⟩
  | .hbm, ⟨15, _⟩ => ⟨S_, .f32⟩
  | .hbm, ⟨16, _⟩ => ⟨S1000000x100, .f32⟩
  | .hbm, ⟨17, _⟩ => ⟨S1000000x100, .f32⟩
  | .hbm, ⟨18, _⟩ => ⟨S_, .f32⟩
  | .hbm, ⟨19, _⟩ => ⟨S1000000, .f32⟩
  | .hbm, ⟨20, _⟩ => ⟨S_, .f32⟩
  | .hbm, ⟨21, _⟩ => ⟨S1000000, .f32⟩
  | .hbm, ⟨22, _⟩ => ⟨S1000000, .f32⟩
  | .hbm, ⟨23, _⟩ => ⟨S1000000, .f32⟩
  | .hbm, ⟨24, _⟩ => ⟨S_, .f32⟩
  | .hbm, ⟨25, _⟩ => ⟨S_, .f32⟩
  | .hbm, ⟨26, _⟩ => ⟨S1000000, .f32⟩
  | .hbm, ⟨27, _⟩ => ⟨S1000000, .f32⟩
  | .hbm, ⟨28, _⟩ => ⟨S1000000, .f32⟩
  | .hbm, ⟨29, _⟩ => ⟨S1000000, .f32⟩
  | .hbm, ⟨30, _⟩ => ⟨S_, .f32⟩
  | .hbm, ⟨31, _⟩ => ⟨S_, .f32⟩
  | .hbm, ⟨32, _⟩ => ⟨S1000000, .f32⟩
  | .hbm, ⟨33, _⟩ => ⟨S1000000, .f32⟩
  | .hbm, ⟨34, _⟩ => ⟨S1000000, .f32⟩
  | .hbm, ⟨35, _⟩ => ⟨S_, .f32⟩
  | .hbm, ⟨36, _⟩ => ⟨S1000000, .f32⟩
  | .hbm, ⟨37, _⟩ => ⟨S1000000, .f32⟩
  | .hbm, ⟨38, _⟩ => ⟨S1000000, .f32⟩
  | .hbm, ⟨39, _⟩ => ⟨S1000000, .f32⟩
  | .hbm, ⟨40, _⟩ => ⟨S1000000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S1000000x1_S1000000x100_0_1 : S1000000x1.BroadcastsInDim S1000000x100 (![0, 1] : Fin 2 → Fin S1000000x100.rank)
  bcast_S_S1000000x100 : S_.BroadcastsInDim S1000000x100 (![] : Fin 0 → Fin S1000000x100.rank)
  reducesTo_S1000000x100_S1000000_d1 : S1000000x100.ReducesTo [1] S1000000
  h_S_ : 0 < S_.numel
  bcast_S_S1000000 : S_.BroadcastsInDim S1000000 (![] : Fin 0 → Fin S1000000.rank)
  reducesTo_S1000000_S_d0 : S1000000.ReducesTo [0] S_

variable [Facts₀]

class Facts : Prop extends Facts₀ where

variable [Facts]
-- ==== Proof.Spec.lean ====
/-
  The stochastic binary-cross-entropy loss, as one function of the four input arrays over the extended reals,
  and the summation algebra that joins the two programs.

  For row `i` with logit `l`, standard deviation `s`, target `t` and noise samples `n k` (`k < 100`):

      p    = (∑ₖ σ(l + s · n k)) / 100           the mean of the sigmoids of the corrupted logits
      loss = -(t · max (log p) (-100) + (1 - t) · max (log (1 + (-p))) (-100))

  and the result is `(∑ᵢ loss i) / 10⁶` over the 10⁶ rows.

  One program sums all rows at once. The other pads the rows to 98 blocks of 10240, multiplies each padded row's
  loss by 1 (a true row) or 0 (a padding row), sums each block, accumulates 49 consecutive block sums per core, and
  adds the two per-core totals. Over a commutative monoid these are the same sum: a sum over blocks of sums over a
  block is the sum over the concatenated range; the terms past the true length vanish; and a running total that
  restarts every 49 blocks holds, after block `n`, the blocks from the last restart up to `n`.
-/
import Idealize.ShloMosaic.PureOps.Ideal
import Idealize.ShloMosaic.PureOps.Ideal.Laws
import Idealize.ShloMosaic.Lib.IdealHost
import Idealize.ShloMosaic.Lib.ValueIdx

noncomputable section

namespace Cert.Loss

open Idealize.ShloMosaic Idealize.ShloMosaic.ValueIdx

/-- The mean over the 100 samples of the sigmoid of the corrupted logit `l + s · n k`. -/
def rowProb (l s : EReal) (n : Fin 100 → EReal) : EReal :=
  Ideal.div (∑ k : Fin 100, Ideal.logistic (l + s * n k)) (Ideal.ofBits .f32 0x42C80000#32)

/-- The binary cross-entropy of a row against its target, each logarithm clamped below at -100. -/
def rowLoss (l s t : EReal) (n : Fin 100 → EReal) : EReal :=
  -(t * max (Ideal.log (rowProb l s n)) (Ideal.ofBits .f32 0xC2C80000#32)
    + (1 - t) * max (Ideal.log1p (-(rowProb l s n))) (Ideal.ofBits .f32 0xC2C80000#32))

/-- Row `i`'s loss read off the four input arrays (zero past the last row, where no row is). -/
def lossAt (x0 x1 x2 : (⟨1, ![1000000]⟩ : Shape).Idx → EReal) (x3 : (⟨2, ![1000000, 100]⟩ : Shape).Idx → EReal) (i : ℕ) : EReal :=
  if h : i < 1000000 then
    rowLoss (x0 (ix1 ⟨i, h⟩)) (x1 (ix1 ⟨i, h⟩)) (x2 (ix1 ⟨i, h⟩)) (fun k => x3 (ix2 ⟨i, h⟩ k))
  else 0

/-- The result both programs compute: the mean of the rows' losses. -/
def meanLoss (x0 x1 x2 : (⟨1, ![1000000]⟩ : Shape).Idx → EReal) (x3 : (⟨2, ![1000000, 100]⟩ : Shape).Idx → EReal) : EReal :=
  Ideal.div (∑ i ∈ Finset.range 1000000, lossAt x0 x1 x2 x3 i) (Ideal.ofBits .f32 0x49742400#32)

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- So a sum over it is the sum over that coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Sums

variable {M : Type*} [AddCommMonoid M]

/-- A sum over `A` blocks of the sums over the `B` entries of each block is the sum over the `A · B` entries. -/
theorem sum_blocks (h : ℕ → M) (B : ℕ) : ∀ A : ℕ,
    ∑ a ∈ Finset.range A, ∑ b ∈ Finset.range B, h (a * B + b) = ∑ i ∈ Finset.range (A * B), h i
  | 0 => by simp
  | A + 1 => by rw [Finset.sum_range_succ, sum_blocks h B A, Nat.succ_mul, Finset.sum_range_add]

/-- Terms past the true length `n` that are zero do not count. -/
theorem sum_trunc (f : ℕ → M) (n k : ℕ) :
    ∑ i ∈ Finset.range (n + k), (if i < n then f i else 0) = ∑ i ∈ Finset.range n, f i := by
  rw [Finset.sum_range_add, Finset.sum_congr rfl (fun i hi => if_pos (Finset.mem_range.mp hi)),
    Finset.sum_eq_zero (fun x _ => if_neg (by omega)), add_zero]

/-- A running total that restarts at every multiple of 49 and otherwise adds the current block to what the block
    before left holds, after block `n`, the sum of the blocks from the last restart up to `n`. -/
theorem restart_chain (acc B : ℕ → M) (N : ℕ)
    (hA : ∀ n, n < N → n % 49 = 0 → acc n = B n)
    (hB : ∀ n, n < N → n % 49 ≠ 0 → acc n = acc (n - 1) + B n) :
    ∀ n, n < N → acc n = ∑ k ∈ Finset.Ico (n / 49 * 49) (n + 1), B k
  | 0, h => by
    rw [hA 0 h rfl]; simp
  | n + 1, h => by
    by_cases h0 : (n + 1) % 49 = 0
    · rw [hA _ h h0, show (n + 1) / 49 * 49 = n + 1 by omega, Finset.sum_Ico_succ_top (le_refl _), Finset.Ico_self,
        Finset.sum_empty, zero_add]
    · rw [hB _ h h0, Nat.add_sub_cancel, restart_chain acc B N hA hB n (by omega),
        show (n + 1) / 49 * 49 = n / 49 * 49 by omega]
      exact (Finset.sum_Ico_succ_top (by omega) _).symm

/-- The two per-core totals — blocks 0…48 and blocks 49…97 — add up to all 98 blocks. -/
theorem two_cores (B : ℕ → M) :
    ∑ c ∈ Finset.range 2, ∑ k ∈ Finset.Ico (c * 49) (c * 49 + 49), B k = ∑ k ∈ Finset.range 98, B k := by
  rw [← sum_blocks B 49 2]
  refine Finset.sum_congr rfl fun c _ => ?_
  rw [Finset.sum_Ico_eq_sum_range, Nat.add_sub_cancel_left]

end Sums

/-- The whole algebra at once: if block `k` sums, over its 10240 rows, `f` on the true rows and zero on the padding
    rows, then the 98 blocks sum to `f` over the 10⁶ true rows. -/
theorem blocks_total {M : Type*} [AddCommMonoid M] (f : ℕ → M) :
    ∑ k ∈ Finset.range 98, ∑ r ∈ Finset.range 10240, (if k * 10240 + r < 1000000 then f (k * 10240 + r) else 0)
      = ∑ i ∈ Finset.range 1000000, f i := by
  rw [sum_blocks (fun i => if i < 1000000 then f i else 0) 10240 98]
  exact sum_trunc f 1000000 3520

end Cert.Loss

end
-- ==== Proof.RefStages.lean ====
/-
  The reference program's result is the mean loss of the specification.

  Read one operation at a time, row `a` of the reference's per-row vector is
  `-(t · max (-100) (log p) + (1 - t) · max (-100) (log (1 + (-p))))` with
  `p = (0 + ∑ₖ 1 / (1 + exp (-(l + s · n k)))) / 100`: the sigmoid spelled out, the maximum's operands swapped and
  a zero in front of the sum. Over the extended reals these are the specification's row loss. The final stage adds
  the rows from zero and divides by 10⁶.
-/
import proofs.«116912_j59304908423657_1_alg».proof.Proof.Gen.ReferenceIdeal.Read
import proofs.«116912_j59304908423657_1_alg».proof.Proof.Spec
import Idealize.ShloMosaic.Lib.ValueIdx
import Idealize.ShloMosaic.PureOps.Ideal.Laws
import Idealize.ShloMosaic.Lib.IdealHost

noncomputable section

namespace Cert.ReferenceIdeal.RefStages

open Cert.ReferenceIdeal Cert.ReferenceIdeal.Read Idealize.ShloMosaic Idealize.ShloMosaic.ValueIdx Cert.Loss

/-- Row `a`, sample `k` of the [10⁶, 100] arrays sits over row `a` of the [10⁶] arrays: the composed index maps of the
    two broadcasts. -/
theorem idx_logit (a : Fin 1000000) (k : Fin 100) : idx_main_v0 (idx_main_v4 (ix2 a k)) = ix1 a :=
  funext fun d => Fin.ext (by match d with | ⟨0, _⟩ => rfl)
theorem idx_stddev (a : Fin 1000000) (k : Fin 100) : idx_main_v1 (idx_main_v2 (ix2 a k)) = ix1 a :=
  funext fun d => Fin.ext (by match d with | ⟨0, _⟩ => rfl)
theorem idx_noise (a : Fin 1000000) (k : Fin 100) : idx_main_v12 (ix1 a) k = ix2 a k :=
  funext fun d => Fin.ext (by match d with | ⟨0, _⟩ => rfl | ⟨1, _⟩ => rfl)

/-- The reference's per-row loss vector at row `a` is the specification's row loss of that row. -/
theorem row_eq (x0 x1 x2 : S1000000.Idx → EReal) (x3 : S1000000x100.Idx → EReal) (a : Fin 1000000) :
    val_main_v25 (F := Ideal) x0 x1 x2 x3 (ix1 a)
      = rowLoss (x0 (ix1 a)) (x1 (ix1 a)) (x2 (ix1 a)) (fun k => x3 (ix2 a k)) := by
  simp only [val_main_v25_apply, val_main_v24_apply, val_main_v20_apply, val_main_v23_apply, val_main_v16_apply,
    val_main_v19_apply, val_main_v22_apply, val_main_v21_apply, val_main_cst_5_apply, val_main_call0_v1_apply,
    val_main_call0_v0_apply, val_main_cst_3_apply, val_main_call1_v1_apply, val_main_call1_v0_apply,
    val_main_cst_4_apply, val_main_v15_apply, val_main_v18_apply, val_main_v17_apply, val_main_v14_apply,
    val_main_v13_apply, val_main_cst_2_apply, val_main_v12_apply, val_main_cst_1_apply, val_main_v11_apply,
    val_main_v10_apply, val_main_cst_0_apply, val_main_v9_apply, val_main_v8_apply, val_main_cst_apply,
    val_main_v7_apply, val_main_v6_apply, val_main_v5_apply, val_main_v4_apply, val_main_v0_apply,
    val_main_v3_apply, val_main_v2_apply, val_main_v1_apply, idx_logit, idx_stddev, idx_noise,
    Ideal.ofBits_def, Ideal.addf_def, Ideal.subf_def, Ideal.mulf_def, Ideal.hostDivf_def, Ideal.hostNegf_def,
    Ideal.negf_def, Ideal.maximumf_def, Ideal.hostUnary_exp_def, Ideal.hostUnary_log_def, Ideal.hostUnary_log1p_def,
    Ideal.ofBits_zero_f32, Ideal.ofBits_one_f32, zero_add,
    rowLoss, rowProb, Ideal.logistic, max_comm (Ideal.ofBits .f32 0xC2C80000#32)]

/-- The reference's result: the rows' losses added from zero, divided by 10⁶ — the specification's mean loss. -/
theorem result_eq (x0 x1 x2 : S1000000.Idx → EReal) (x3 : S1000000x100.Idx → EReal) :
    val_main_v27 (F := Ideal) x0 x1 x2 x3 = fun _ => meanLoss x0 x1 x2 x3 := by
  funext i
  rw [val_main_v27_apply, val_main_v26_apply, val_main_cst_6_apply, val_main_cst_7_apply, sum_idx1]
  simp only [Ideal.ofBits_def, Ideal.hostDivf_def, Ideal.ofBits_zero_f32, zero_add, row_eq]
  have hs : ∑ a : Fin 1000000, rowLoss (x0 (ix1 a)) (x1 (ix1 a)) (x2 (ix1 a)) (fun k => x3 (ix2 a k))
      = ∑ i ∈ Finset.range 1000000, lossAt x0 x1 x2 x3 i := by
    refine Eq.trans (Finset.sum_congr rfl fun a _ => ?_) (Fin.sum_univ_eq_sum_range (fun i => lossAt x0 x1 x2 x3 i) 1000000)
    show _ = lossAt x0 x1 x2 x3 a.val
    unfold lossAt
    rw [dif_pos a.isLt]
  rw [hs]
  rfl

end Cert.ReferenceIdeal.RefStages

end
-- ==== Proof.Cases.lean ====
/-
  What one grid point leaves in the accumulator and in the output block, case by case.

  The body keeps one running total (a [1, 1, 1] scratch). At a core's first step it stores the zero block there first;
  at every step it stores "what the total held, plus the masked sum of the block's loss vector"; at a core's last step
  it then copies the total into the output block. Each store covers its whole buffer, so what a buffer holds after
  the body is the payload of the last store into it, and a load after a store reads that store's payload. Hence all
  three cases leave ONE function of the input blocks and of the total they found — `step` below —, the first case
  at the zero block.
-/
import proofs.«116912_j59304908423657_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The first global row of the block at grid point `(core, step)`, as the kernel's 32-bit word
    `core · 501760 + step · 10240`. -/
def rowBase (i : grid0.Coords) : BitVec 32 :=
  Scalar.addi (Scalar.muli (BitVec.ofNat 32 (i 0).val) 501760#32) (Scalar.muli (BitVec.ofNat 32 (i 1).val) 10240#32)

/-- What one grid point makes of the accumulator `acc`: `acc` plus the masked sum of the block's loss vector. -/
def step (i : grid0.Coords) (x0 x1 x2 : Vec F S10240 .f32) (x3 : Vec F S10240x100 .f32) (acc : Vec F S1x1x1 .f32) :
    Vec F S1x1x1 .f32 :=
  k0_pay1 (k0_pay3 x0 x1 x2 x3) k0_pay4 (rowBase i) acc

/-- A middle step (neither first nor last of its core): the accumulator holding `xs0` ends at the step of `xs0`. -/
theorem sout_B (c : Dev nD) (i : grid0.Coords) (a2 : Memref sig .tc .vmem S10240 .f32) (h2 : a2.IsWhole) (a3 : Memref sig .tc .vmem S10240 .f32) (h3 : a3.IsWhole) (a4 : Memref sig .tc .vmem S10240 .f32) (h4 : a4.IsWhole) (a5 : Memref sig .tc .vmem S10240x100 .f32) (h5 : a5.IsWhole) (a6 : Memref sig .tc .vmem S1x1x1 .f32) (h6 : a6.IsWhole) (a7 : Memref sig .tc .vmem S1x1x1 .f32) (h7 : a7.IsWhole) (hc0 : ¬cond0_0 i) (hc1 : ¬cond0_1 i) (x0 : Vec F S10240 .f32) (x1 : Vec F S10240 .f32) (x2 : Vec F S10240 .f32) (x3 : Vec F S10240x100 .f32) (xs0 : Vec F S1x1x1 .f32) :
    sout0_B_0 c i a2 h2 a3 h3 a4 h4 a5 h5 a6 h6 a7 h7 hc0 hc1 x0 x1 x2 x3 xs0 = step i x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz3]
  simp only [View.readAt_eq_ld, h2.read_unread, h3.read_unread, h4.read_unread, h5.read_unread, h7.read_unread,
    View.ld_unit_zero (S := S1x1x1) hz3, View.ld_unit_zero (S := S10240) hz1, View.ld_unit_zero (S := S10240x100) hz2]
  rfl

/-- A core's first step: the accumulator is first set to zero, so it ends at the step of the zero block. -/
theorem sout_A (c : Dev nD) (i : grid0.Coords) (a2 : Memref sig .tc .vmem S10240 .f32) (h2 : a2.IsWhole) (a3 : Memref sig .tc .vmem S10240 .f32) (h3 : a3.IsWhole) (a4 : Memref sig .tc .vmem S10240 .f32) (h4 : a4.IsWhole) (a5 : Memref sig .tc .vmem S10240x100 .f32) (h5 : a5.IsWhole) (a6 : Memref sig .tc .vmem S1x1x1 .f32) (h6 : a6.IsWhole) (a7 : Memref sig .tc .vmem S1x1x1 .f32) (h7 : a7.IsWhole) (hc0 : cond0_0 i) (hc1 : ¬cond0_1 i) (x0 : Vec F S10240 .f32) (x1 : Vec F S10240 .f32) (x2 : Vec F S10240 .f32) (x3 : Vec F S10240x100 .f32) :
    sout0_A_0 c i a2 h2 a3 h3 a4 h4 a5 h5 a6 h6 a7 h7 hc0 hc1 x0 x1 x2 x3 = step i x0 x1 x2 x3 k0_pay2 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h7.read_unread,
    View.ld_unit_zero (S := S1x1x1) hz3, View.ld_unit_zero (S := S10240) hz1, View.ld_unit_zero (S := S10240x100) hz2]
  rfl

/-- A core's last step leaves the same in the accumulator … -/
theorem sout_C (c : Dev nD) (i : grid0.Coords) (a2 : Memref sig .tc .vmem S10240 .f32) (h2 : a2.IsWhole) (a3 : Memref sig .tc .vmem S10240 .f32) (h3 : a3.IsWhole) (a4 : Memref sig .tc .vmem S10240 .f32) (h4 : a4.IsWhole) (a5 : Memref sig .tc .vmem S10240x100 .f32) (h5 : a5.IsWhole) (a6 : Memref sig .tc .vmem S1x1x1 .f32) (h6 : a6.IsWhole) (a7 : Memref sig .tc .vmem S1x1x1 .f32) (h7 : a7.IsWhole) (hc0 : ¬cond0_0 i) (hc1 : cond0_1 i) (x0 : Vec F S10240 .f32) (x1 : Vec F S10240 .f32) (x2 : Vec F S10240 .f32) (x3 : Vec F S10240x100 .f32) (xs0 : Vec F S1x1x1 .f32) :
    sout0_C_0 c i a2 h2 a3 h3 a4 h4 a5 h5 a6 h6 a7 h7 hc0 hc1 x0 x1 x2 x3 xs0 = step i x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz3]
  simp only [View.readAt_eq_ld, h2.read_unread, h3.read_unread, h4.read_unread, h5.read_unread, h7.read_unread,
    View.ld_unit_zero (S := S1x1x1) hz3, View.ld_unit_zero (S := S10240) hz1, View.ld_unit_zero (S := S10240x100) hz2]
  rfl

/-- … and copies it into the output block. -/
theorem out_C (c : Dev nD) (i : grid0.Coords) (a2 : Memref sig .tc .vmem S10240 .f32) (h2 : a2.IsWhole) (a3 : Memref sig .tc .vmem S10240 .f32) (h3 : a3.IsWhole) (a4 : Memref sig .tc .vmem S10240 .f32) (h4 : a4.IsWhole) (a5 : Memref sig .tc .vmem S10240x100 .f32) (h5 : a5.IsWhole) (a6 : Memref sig .tc .vmem S1x1x1 .f32) (h6 : a6.IsWhole) (a7 : Memref sig .tc .vmem S1x1x1 .f32) (h7 : a7.IsWhole) (hc0 : ¬cond0_0 i) (hc1 : cond0_1 i) (x0 : Vec F S10240 .f32) (x1 : Vec F S10240 .f32) (x2 : Vec F S10240 .f32) (x3 : Vec F S10240x100 .f32) (xs0 : Vec F S1x1x1 .f32) :
    out0_C_4 c i a2 h2 a3 h3 a4 h4 a5 h5 a6 h6 a7 h7 hc0 hc1 x0 x1 x2 x3 xs0 = step i x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3, View.readCov_unit_zero (S := S1x1x1) _ hz3]
  simp only [View.readAt_eq_ld, h2.read_unread, h3.read_unread, h4.read_unread, h5.read_unread, h7.read_unread,
    View.ld_unit_zero (S := S1x1x1) hz3, View.ld_unit_zero (S := S10240) hz1, View.ld_unit_zero (S := S10240x100) hz2]
  rfl

end Cert.KernelIdeal.Cases

end
-- ==== Proof.Points.lean ====
/-
  What the accumulator holds after each grid point, as steps.

  The 98 points run core by core: points 0…48 are core 0's steps, 49…97 core 1's. At a core's first step
  (`t % 49 = 0`) the accumulator is the step of the zero block; at every other step it is the step of what the point
  before left; and at a core's last step (`t % 49 = 48`) the output block receives the same value.
-/
import proofs.«116912_j59304908423657_1_alg».proof.Proof.Cases

noncomputable section

namespace Cert.KernelIdeal.Points

open Cert.KernelIdeal Cert.KernelIdeal.Gen Cert.KernelIdeal.Cases Idealize.ShloMosaic Idealize.ShloMosaic.TcCoe Idealize.SL.Sem

variable {F : FTy → Type} [FloatOps F] (m : (ℓ : Loc nD τ sig) → Buf (Elt F) ℓ)

/-- The step at point `t`, on the point's four input blocks. -/
abbrev stepAt (c : Dev nD) (t : Fin cfg0.N) (acc : Vec F S1x1x1 .f32) : Vec F S1x1x1 .f32 :=
  step (grid0.coords t) (iblk m c 0 t) (iblk m c 1 t) (iblk m c 2 t) (iblk m c 3 t) acc

/-- What the point before `t` left in the accumulator. -/
abbrev prev (c : Dev nD) (t : Fin cfg0.N) : Vec F S1x1x1 .f32 :=
  (outsAt0 m c (t.val - 1) (Nat.lt_of_le_of_lt (Nat.sub_le _ _) t.isLt)).2

/-- A core's first step. -/
theorem acc_first (c : Dev nD) (t : Fin cfg0.N) (h0 : t.val % 49 = 0) :
    (outsAt0 m c t.val t.isLt).2 = stepAt m c t k0_pay2 := by
  have h1 : ¬t.val % 49 = 48 := by omega
  rw [outsAt0_A m c t h0 h1]
  exact sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- A middle step. -/
theorem acc_middle (c : Dev nD) (t : Fin cfg0.N) (h0 : ¬t.val % 49 = 0) (h1 : ¬t.val % 49 = 48) :
    (outsAt0 m c t.val t.isLt).2 = stepAt m c t (prev m c t) := by
  rw [outsAt0_B m c t h0 h1]
  exact sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (prev m c t)

/-- A core's last step: the accumulator … -/
theorem acc_last (c : Dev nD) (t : Fin cfg0.N) (h1 : t.val % 49 = 48) :
    (outsAt0 m c t.val t.isLt).2 = stepAt m c t (prev m c t) := by
  have h0 : ¬t.val % 49 = 0 := by omega
  rw [outsAt0_C m c t h0 h1]
  exact sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (prev m c t)

/-- … and the output block. -/
theorem out_last (c : Dev nD) (t : Fin cfg0.N) (h1 : t.val % 49 = 48) :
    (outsAt0 m c t.val t.isLt).1 = stepAt m c t (prev m c t) := by
  have h0 : ¬t.val % 49 = 0 := by omega
  rw [outsAt0_C m c t h0 h1]
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (prev m c t)

end Cert.KernelIdeal.Points

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.BlockLoss.lean ====
/-
  One block of the kernel: the per-row loss vector it computes from its four input blocks.

  From a block of 10240 logits, standard deviations and targets and the [10240, 100] block of noise, the body forms
  the corrupted logits `l r + s r · n (r, k)` (the two vectors spread along the samples as columns), their sigmoids,
  the row sums divided by 100, the two clamped logarithms and `0 - (t · … + (1 - t) · …)`. Read at row `r` this is
  the specification's row loss of row `r` of the blocks: the row sum is a plain sum over the 100 samples, a column
  spread reads the vector at the row, and `0 - x = -x`.
-/
import proofs.«116912_j59304908423657_1_alg».proof.Proof.Gen.KernelIdeal.Skeleton
import proofs.«116912_j59304908423657_1_alg».proof.Proof.Spec
import proofs.«116912_j59304908423657_1_alg».proof.Proof.LibRowReduce
import proofs.«116912_j59304908423657_1_alg».proof.Proof.LibColumns
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.BlockLoss

open Cert.KernelIdeal Cert.KernelIdeal.Gen Idealize.ShloMosaic Idealize.ShloMosaic.ValueIdx Cert.Loss

theorem log_apply {s : Shape} {φ : FTy} (x : FVec Ideal s φ) (i : s.Idx) : log x i = Ideal.log (x i) := rfl
theorem log1p_apply {s : Shape} {φ : FTy} (x : FVec Ideal s φ) (i : s.Idx) : log1p x i = Ideal.log1p (x i) := rfl
theorem logistic_apply {s : Shape} {φ : FTy} (x : FVec Ideal s φ) (i : s.Idx) : logistic x i = Ideal.logistic (x i) := rfl

/-- A vector kept as a column and spread along the 100 samples reads, at (r, k), the vector at row `r`. -/
theorem spread_apply (x : FVec Ideal S10240 .f32) (r : Fin 10240) (k : Fin 100) :
    broadcastTo S10240x100 (shapeCast S10240x1 x shapeCasts_S10240_S10240x1) broadcasts_S10240x1_S10240x100 (ix2 r k)
      = x (ix1 r) :=
  (broadcastTo_a1_ab_apply _ _ r k).trans (RowReduce.shapeCast_a_a1_apply x _ r 0)

/-- The row sum of the sigmoids of the corrupted logits, at row `r`. -/
theorem row_sum (x0 x1 : FVec Ideal S10240 .f32) (x3 : FVec Ideal S10240x100 .f32) (r : Fin 10240) :
    multiReduction .add [1] S10240
        (logistic (addf (broadcastTo S10240x100 (shapeCast S10240x1 x0 shapeCasts_S10240_S10240x1) broadcasts_S10240x1_S10240x100)
          (mulf (broadcastTo S10240x100 (shapeCast S10240x1 x1 shapeCasts_S10240_S10240x1) broadcasts_S10240x1_S10240x100) x3)))
        0x00000000#32 reduces_S10240x100_S10240 (.inl rfl) rfl (ix1 r)
      = ∑ k : Fin 100, Ideal.logistic (x0 (ix1 r) + x1 (ix1 r) * x3 (ix2 r k)) := by
  refine (RowReduce.multiReduction_add_row _ _ _ _ _ r).trans (Finset.sum_congr rfl fun k _ => ?_)
  rw [logistic_apply, addf_apply, mulf_apply, spread_apply, spread_apply]

/-- The body's loss vector at row `r` of the block is the row loss of that row of the input blocks. -/
theorem loss_apply (x0 x1 x2 : FVec Ideal S10240 .f32) (x3 : FVec Ideal S10240x100 .f32) (r : Fin 10240) :
    k0_pay3 (F := Ideal) x0 x1 x2 x3 (ix1 r)
      = rowLoss (x0 (ix1 r)) (x1 (ix1 r)) (x2 (ix1 r)) (fun k => x3 (ix2 r k)) := by
  unfold k0_pay3
  simp only [shapeCast_self]
  simp only [subf_apply, addf_apply, mulf_apply, maximumf_apply, divf_apply, broadcast_apply, log_apply, log1p_apply,
    row_sum x0 x1 x3 r]
  simp only [Ideal.ofBits_def, Ideal.ofBits_zero_f32, Ideal.ofBits_one_f32, zero_sub, rowLoss, rowProb]

end Cert.KernelIdeal.BlockLoss

end
-- ==== Proof.Mask.lean ====
/-
  The padding mask, as words.

  Row `q` of block `k` is global row `k · 10240 + q`. The kernel forms that number in 32-bit words, compares it
  (signed) with 10⁶, widens the one-bit answer to 32 bits and converts it to a float: the result is 1 on a true row
  and 0 on a padding row. All numbers stay below 2³¹, so the word arithmetic is the arithmetic of naturals.
-/
import Idealize.ShloMosaic.PureOps.Ideal

namespace Cert.Loss.Mask

open Idealize.ShloMosaic

/-- A natural below 2³¹, as a 32-bit word read signed, is itself. -/
theorem toInt_ofNat_small (n : ℕ) (hn : n < 2147483648) : (BitVec.ofNat 32 n).toInt = (n : Int) := by
  rw [BitVec.toInt_eq_toNat_cond, BitVec.toNat_ofNat, Nat.mod_eq_of_lt (by omega), if_pos (by omega)]

/-- The signed comparison of such a word with 10⁶ is the comparison of the naturals. -/
theorem slt_million (n : ℕ) (hn : n < 2147483648) :
    IntOp.cmpi .slt (BitVec.ofNat 32 n) 1000000#32 = if n < 1000000 then 1#1 else 0#1 := by
  have h2 : (1000000#32 : BitVec 32).toInt = 1000000 := by decide
  show BitVec.ofBool (decide ((BitVec.ofNat 32 n).toInt < (1000000#32 : BitVec 32).toInt)) = _
  rw [toInt_ofNat_small n hn, h2]
  by_cases h : n < 1000000
  · rw [if_pos h, decide_eq_true (by omega)]; rfl
  · rw [if_neg h, decide_eq_false (by omega)]; rfl

/-- The mask word of row `q` of block `k`, widened and read as an integer: 1 on a true row, 0 on a padding row. -/
theorem mask_int (k q : ℕ) (hk : k < 98) (hq : q < 10240) :
    ((IntOp.cmpi .slt (IntOp.addi (BitVec.ofNat 32 (k * 10240)) (BitVec.ofNat 32 q)) 1000000#32).setWidth 32).toInt
      = if k * 10240 + q < 1000000 then 1 else 0 := by
  show ((IntOp.cmpi .slt (BitVec.ofNat 32 (k * 10240) + BitVec.ofNat 32 q) 1000000#32).setWidth 32).toInt = _
  rw [← BitVec.ofNat_add, slt_million _ (by omega)]
  by_cases h : k * 10240 + q < 1000000
  · rw [if_pos h, if_pos h]; decide
  · rw [if_neg h, if_neg h]; decide

end Cert.Loss.Mask
-- ==== Proof.StepValue.lean ====
/-
  One grid point's step, read at the ideal values.

  The step adds to the accumulator's one entry the sum, over the block's 10240 rows, of the row's loss times the row's
  mask. For block `k` (first global row `k · 10240`) the mask of row `q` is 1 when `k · 10240 + q < 10⁶` and 0 on a
  padding row, and `x · 1 = x`, `x · 0 = 0` on every extended real: so the step adds the losses of the block's true rows.
-/
import proofs.«116912_j59304908423657_1_alg».proof.Proof.Cases
import proofs.«116912_j59304908423657_1_alg».proof.Proof.BlockLoss
import proofs.«116912_j59304908423657_1_alg».proof.Proof.Mask
import proofs.«116912_j59304908423657_1_alg».proof.Proof.LibRowReduce
import Idealize.ShloMosaic.Lib.ValueIdx
import Idealize.ShloMosaic.Lib.Pipeline.Value

noncomputable section

namespace Cert.KernelIdeal.StepValue

open Cert.KernelIdeal Cert.KernelIdeal.Gen Cert.KernelIdeal.Cases Idealize.ShloMosaic Idealize.ShloMosaic.ValueIdx Cert.Loss

/-- The row counter within a block: entry `q` is the word `q`. -/
theorem iota_apply (q : Fin 10240) : k0_pay4 (ix1 q) = BitVec.ofNat 32 q.val := by
  unfold k0_pay4
  refine (shapeCast_apply _ _ (ix1 q) (ix2 (0 : Fin 1) q) ?_).trans ?_
  · rw [Shape.rowMajor_val_two, Shape.rowMajor_val_one]
    show 0 * 10240 + q.val = q.val
    omega
  · show BitVec.ofNat 32 (0 * 10240 + q.val) = _
    rw [Nat.zero_mul, Nat.zero_add]

/-- The mask of row `q` of the block whose first global row is the word `w`: the comparison's bit, widened and read
    as an integer. -/
theorem mask_apply (w : BitVec 32) (q : Fin 10240) :
    (sitofp .f32 (extui 32 (cmpi .slt (addi (broadcast S10240 w) k0_pay4) (broadcast S10240 1000000#32)) natLt_1_32)
        : FVec Ideal S10240 .f32) (ix1 q)
      = ((((IntOp.cmpi .slt (IntOp.addi w (BitVec.ofNat 32 q.val)) 1000000#32).setWidth 32).toInt : ℝ) : EReal) := by
  rw [sitofp_apply, extui_apply]
  show ((((IntOp.cmpi .slt (IntOp.addi w (k0_pay4 (ix1 q))) 1000000#32).setWidth 32).toInt : ℝ) : EReal) = _
  rw [iota_apply]

/-- A [10240] vector summed as one [1, 10240] row down to a scalar: the sum of its entries. -/
theorem lane_total (v : FVec Ideal S10240 .f32) :
    extractAt ![0, 0] (shapeCast S1x1 (multiReduction .add [1] S1 (shapeCast S1x10240 v shapeCasts_S10240_S1x10240)
        0x00000000#32 reduces_S1x10240_S1 (.inl rfl) rfl) shapeCasts_S1_S1x1) inpos_S1x1_p0_0
      = ∑ q : Fin 10240, v (ix1 q) := by
  unfold extractAt
  refine (shapeCast_addUnit_apply ![1] _ _ _).trans ?_
  refine (congrArg _ (show _ = ix1 (0 : Fin 1) from funext fun a => by match a with | ⟨0, _⟩ => rfl)).trans ?_
  refine (RowReduce.multiReduction_add_row _ _ _ _ _ (0 : Fin 1)).trans (Finset.sum_congr rfl fun q _ => ?_)
  refine (shapeCast_addUnit_apply ![10240] v _ _).trans (congrArg v ?_)
  exact funext fun a => by match a with | ⟨0, _⟩ => rfl

/-- The step of block `k` at the ideal values: the accumulator's entry plus the losses of the block's true rows. -/
theorem step_apply (i : grid0.Coords) (k : ℕ) (hk : k < 98) (hbase : rowBase i = BitVec.ofNat 32 (k * 10240))
    (x0 x1 x2 : FVec Ideal S10240 .f32) (x3 : FVec Ideal S10240x100 .f32) (acc : FVec Ideal S1x1x1 .f32) (j : S1x1x1.Idx) :
    step (F := Ideal) i x0 x1 x2 x3 acc j
      = acc j + ∑ q : Fin 10240, (if k * 10240 + q.val < 1000000 then
          rowLoss (x0 (ix1 q)) (x1 (ix1 q)) (x2 (ix1 q)) (fun s => x3 (ix2 q s)) else 0) := by
  unfold step k0_pay1
  simp only [shapeCast_self, addf_apply, broadcast_apply]
  refine congrArg (acc j + ·) ((lane_total _).trans (Finset.sum_congr rfl fun q _ => ?_))
  rw [mulf_apply, BlockLoss.loss_apply, mask_apply, hbase, Mask.mask_int k q.val hk q.isLt]
  by_cases h : k * 10240 + q.val < 1000000
  · rw [if_pos h, if_pos h]; simp
  · rw [if_neg h, if_neg h]; simp

end Cert.KernelIdeal.StepValue

end
-- ==== Proof.LibPadRead.lean ====
/-
  A padded array read at an index (`stablehlo.pad` with no interior padding).

  `pad t lo hi interior x v` holds, at a result index `j`, the operand `x` where `j` minus the low padding is an
  operand index on every axis, and the padding value `v` elsewhere. With no interior padding the two cases are
  plain intervals: `j` is inside when `lo a ≤ j a < lo a + size a` on every axis `a`, and then reads `x` at
  `j - lo`; it is outside as soon as ONE axis leaves its interval, and then reads the padding value.
  The caller names the operand index by its coordinates and owes one linear equation per axis.
-/
import Idealize.ShloMosaic.PureOps.Ideal

namespace Cert.Lib.PadRead

open Idealize.ShloMosaic

variable {s t u : Shape} {α : Type}

/-- INSIDE: if on every axis the result coordinate is the low padding plus an operand coordinate `k a` (and the
    axis has no interior padding), the padded array reads the operand at `k`. -/
theorem pad_apply_inside (lo hi interior : Fin s.rank → Nat) (x : s.Idx → α) (v : u.Idx → α)
    (h : s.Pads lo hi interior t) (hu : 0 < u.numel) (j : t.Idx) (k : s.Idx)
    (hint : ∀ a, interior a = 0)
    (hk : ∀ a : Fin s.rank, (j (a.cast h.1)).val = lo a + (k a).val) :
    pad t lo hi interior x v h hu j = x k := by
  unfold pad
  have hin : ∀ a : Fin s.rank, lo a ≤ (j (a.cast h.1)).val
      ∧ ((j (a.cast h.1)).val - lo a) % (interior a + 1) = 0
      ∧ ((j (a.cast h.1)).val - lo a) / (interior a + 1) < s.size a := fun a => by
    rw [hint a, hk a, Nat.add_sub_cancel_left, Nat.zero_add, Nat.mod_one, Nat.div_one]
    exact ⟨Nat.le_add_right _ _, rfl, (k a).isLt⟩
  rw [dif_pos hin]
  refine congrArg x (funext fun a => Fin.ext ?_)
  show ((j (a.cast h.1)).val - lo a) / (interior a + 1) = (k a).val
  rw [hint a, hk a, Nat.add_sub_cancel_left, Nat.zero_add, Nat.div_one]

/-- OUTSIDE: if on ONE axis (without interior padding) the result coordinate is below the low padding or at or
    past the low padding plus the operand's extent, the padded array reads the padding value. -/
theorem pad_apply_outside (lo hi interior : Fin s.rank → Nat) (x : s.Idx → α) (v : u.Idx → α)
    (h : s.Pads lo hi interior t) (hu : 0 < u.numel) (j : t.Idx) (a : Fin s.rank)
    (hint : interior a = 0)
    (ha : (j (a.cast h.1)).val < lo a ∨ lo a + s.size a ≤ (j (a.cast h.1)).val) :
    pad t lo hi interior x v h hu j = v (Shape.Idx.first hu) := by
  unfold pad
  rw [dif_neg]
  intro hin
  obtain ⟨h1, -, h3⟩ := hin a
  rw [hint, Nat.zero_add, Nat.div_one] at h3
  omega

end Cert.Lib.PadRead
-- ==== Proof.Blocks.lean ====
/-
  The kernel's input blocks, read through the host's padding.

  Before the region the host pads each of the four inputs with 3520 rows of zeros, to 98 blocks of 10240 rows. Grid
  point `t` (core `t / 49`, step `t % 49`) fetches block `t` of each padded array, so row `q` of its block is global row
  `t · 10240 + q`; where that is below 10⁶ the padded array holds the input's own row.
-/
import proofs.«116912_j59304908423657_1_alg».proof.Proof.Gen.KernelIdeal.Frame
import proofs.«116912_j59304908423657_1_alg».proof.Proof.LibPadRead
import Idealize.ShloMosaic.Lib.StableHlo.Run
import Idealize.ShloMosaic.Lib.Tactic
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F] (m : (ℓ : Loc nD τ sig) → Buf (Elt F) ℓ)

/-- The printed index maps, decided over the 98 grid points: every input window is on block `t` at point `t` (the noise
    window on column block 0), and the output window on block `t / 49`, its core's. -/
theorem idx_facts : ∀ t : Fin cfg0.N, win0_0.index t (0 : Fin 1) = t.val ∧ win0_1.index t (0 : Fin 1) = t.val
    ∧ win0_2.index t (0 : Fin 1) = t.val ∧ win0_3.index t (0 : Fin 2) = t.val ∧ win0_3.index t (1 : Fin 2) = 0
    ∧ win0_4.index t (0 : Fin 3) = t.val / 49 ∧ win0_4.index t (1 : Fin 3) = 0 ∧ win0_4.index t (2 : Fin 3) = 0 :=
  (by decide +kernel : ∀ t : Fin grid0.N, _)

/-- Before the region the host pads `main_arg0` with zeros to 1003520 rows. -/
theorem V_main_v0 (c : Dev nD) : (V m c main_v0 : S1003520.Idx → Elt F .f32)
    = pad S1003520 ![0] ![3520] ![0] (m ((c : Thread nD τ).loc main_arg0)) (sitofp .f32 (constantI S_ 32 0#32))
        pads_S1000000_S1003520_035200 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Row `q` of point `t`'s block of window 0 is global row `t · 10240 + q` of the padded array … -/
theorem iblk0_apply (c : Dev nD) (t : Fin cfg0.N) (q : Fin 10240) (h : t.val * 10240 + q.val < 1003520) :
    (iblk m c 0 t : Vec F S10240 .f32) (ix1 q) = V m c main_v0 (ix1 ⟨t.val * 10240 + q.val, h⟩) := by
  unfold iblk
  rw [View.read_apply]
  show V m c main_v0 _ = V m c main_v0 _
  congr 1
  funext a
  apply Fin.ext
  match a with
  | ⟨0, _⟩ =>
    show win0_0.index t (0 : Fin 1) * 10240 + 1 * q.val = t.val * 10240 + q.val
    rw [(idx_facts t).1]; omega

/-- … which on a true row is that row of `main_arg0`. -/
theorem in0 (c : Dev nD) (t : Fin cfg0.N) (q : Fin 10240) (h : t.val * 10240 + q.val < 1000000) :
    (iblk m c 0 t : Vec F S10240 .f32) (ix1 q) = m ((c : Thread nD τ).loc main_arg0) (ix1 ⟨t.val * 10240 + q.val, h⟩) := by
  rw [iblk0_apply m c t q (by omega), V_main_v0]
  exact Cert.Lib.PadRead.pad_apply_inside _ _ _ _ _ _ _ _ (ix1 ⟨t.val * 10240 + q.val, h⟩) (fun a => by match a with | ⟨0, _⟩ => rfl)
    (fun a => by match a with | ⟨0, _⟩ => exact (Nat.zero_add _).symm)

/-- Before the region the host pads `main_arg1` with zeros to 1003520 rows. -/
theorem V_main_v1 (c : Dev nD) : (V m c main_v1 : S1003520.Idx → Elt F .f32)
    = pad S1003520 ![0] ![3520] ![0] (m ((c : Thread nD τ).loc main_arg1)) (sitofp .f32 (constantI S_ 32 0#32))
        pads_S1000000_S1003520_035200 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Row `q` of point `t`'s block of window 1 is global row `t · 10240 + q` of the padded array … -/
theorem iblk1_apply (c : Dev nD) (t : Fin cfg0.N) (q : Fin 10240) (h : t.val * 10240 + q.val < 1003520) :
    (iblk m c 1 t : Vec F S10240 .f32) (ix1 q) = V m c main_v1 (ix1 ⟨t.val * 10240 + q.val, h⟩) := by
  unfold iblk
  rw [View.read_apply]
  show V m c main_v1 _ = V m c main_v1 _
  congr 1
  funext a
  apply Fin.ext
  match a with
  | ⟨0, _⟩ =>
    show win0_1.index t (0 : Fin 1) * 10240 + 1 * q.val = t.val * 10240 + q.val
    rw [(idx_facts t).2.1]; omega

/-- … which on a true row is that row of `main_arg1`. -/
theorem in1 (c : Dev nD) (t : Fin cfg0.N) (q : Fin 10240) (h : t.val * 10240 + q.val < 1000000) :
    (iblk m c 1 t : Vec F S10240 .f32) (ix1 q) = m ((c : Thread nD τ).loc main_arg1) (ix1 ⟨t.val * 10240 + q.val, h⟩) := by
  rw [iblk1_apply m c t q (by omega), V_main_v1]
  exact Cert.Lib.PadRead.pad_apply_inside _ _ _ _ _ _ _ _ (ix1 ⟨t.val * 10240 + q.val, h⟩) (fun a => by match a with | ⟨0, _⟩ => rfl)
    (fun a => by match a with | ⟨0, _⟩ => exact (Nat.zero_add _).symm)

/-- Before the region the host pads `main_arg2` with zeros to 1003520 rows. -/
theorem V_main_v2 (c : Dev nD) : (V m c main_v2 : S1003520.Idx → Elt F .f32)
    = pad S1003520 ![0] ![3520] ![0] (m ((c : Thread nD τ).loc main_arg2)) (sitofp .f32 (constantI S_ 32 0#32))
        pads_S1000000_S1003520_035200 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Row `q` of point `t`'s block of window 2 is global row `t · 10240 + q` of the padded array … -/
theorem iblk2_apply (c : Dev nD) (t : Fin cfg0.N) (q : Fin 10240) (h : t.val * 10240 + q.val < 1003520) :
    (iblk m c 2 t : Vec F S10240 .f32) (ix1 q) = V m c main_v2 (ix1 ⟨t.val * 10240 + q.val, h⟩) := by
  unfold iblk
  rw [View.read_apply]
  show V m c main_v2 _ = V m c main_v2 _
  congr 1
  funext a
  apply Fin.ext
  match a with
  | ⟨0, _⟩ =>
    show win0_2.index t (0 : Fin 1) * 10240 + 1 * q.val = t.val * 10240 + q.val
    rw [(idx_facts t).2.2.1]; omega

/-- … which on a true row is that row of `main_arg2`. -/
theorem in2 (c : Dev nD) (t : Fin cfg0.N) (q : Fin 10240) (h : t.val * 10240 + q.val < 1000000) :
    (iblk m c 2 t : Vec F S10240 .f32) (ix1 q) = m ((c : Thread nD τ).loc main_arg2) (ix1 ⟨t.val * 10240 + q.val, h⟩) := by
  rw [iblk2_apply m c t q (by omega), V_main_v2]
  exact Cert.Lib.PadRead.pad_apply_inside _ _ _ _ _ _ _ _ (ix1 ⟨t.val * 10240 + q.val, h⟩) (fun a => by match a with | ⟨0, _⟩ => rfl)
    (fun a => by match a with | ⟨0, _⟩ => exact (Nat.zero_add _).symm)

/-- Before the region the host pads the noise with zero rows to [1003520, 100]. -/
theorem V_main_v3 (c : Dev nD) : (V m c main_v3 : S1003520x100.Idx → Elt F .f32)
    = pad S1003520x100 ![0, 0] ![3520, 0] ![0, 0] (m ((c : Thread nD τ).loc main_arg3)) (sitofp .f32 (constantI S_ 32 0#32))
        pads_S1000000x100_S1003520x100_035200_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Entry (q, s) of point `t`'s noise block is entry (t · 10240 + q, s) of the padded noise … -/
theorem iblk3_apply (c : Dev nD) (t : Fin cfg0.N) (q : Fin 10240) (s : Fin 100) (h : t.val * 10240 + q.val < 1003520) :
    (iblk m c 3 t : Vec F S10240x100 .f32) (ix2 q s) = V m c main_v3 (ix2 ⟨t.val * 10240 + q.val, h⟩ s) := by
  unfold iblk
  rw [View.read_apply]
  show V m c main_v3 _ = V m c main_v3 _
  congr 1
  funext a
  apply Fin.ext
  match a with
  | ⟨0, _⟩ =>
    show win0_3.index t (0 : Fin 2) * 10240 + 1 * q.val = t.val * 10240 + q.val
    rw [(idx_facts t).2.2.2.1]; omega
  | ⟨1, _⟩ =>
    show win0_3.index t (1 : Fin 2) * 100 + 1 * s.val = s.val
    rw [(idx_facts t).2.2.2.2.1]; omega

/-- … which on a true row is that entry of the noise. -/
theorem in3 (c : Dev nD) (t : Fin cfg0.N) (q : Fin 10240) (s : Fin 100) (h : t.val * 10240 + q.val < 1000000) :
    (iblk m c 3 t : Vec F S10240x100 .f32) (ix2 q s)
      = m ((c : Thread nD τ).loc main_arg3) (ix2 ⟨t.val * 10240 + q.val, h⟩ s) := by
  rw [iblk3_apply m c t q s (by omega), V_main_v3]
  exact Cert.Lib.PadRead.pad_apply_inside _ _ _ _ _ _ _ _ (ix2 ⟨t.val * 10240 + q.val, h⟩ s)
    (fun a => by match a with | ⟨0, _⟩ => rfl | ⟨1, _⟩ => rfl)
    (fun a => by match a with | ⟨0, _⟩ => exact (Nat.zero_add _).symm | ⟨1, _⟩ => exact (Nat.zero_add _).symm)

end Cert.KernelIdeal.Blocks

end
-- ==== Proof.Chain.lean ====
/-
  The accumulator after each grid point, in closed form, at the ideal values.

  The step at point `t` adds to the accumulator's entry the losses of the true rows of block `t` (rows
  `t · 10240 … t · 10240 + 10239` below 10⁶), each read off the input arrays through the padding. A core's first step
  starts from the zero block. So after point `n` the accumulator holds the block sums from `n / 49 · 49` — the
  core's first point — up to `n`.
-/
import proofs.«116912_j59304908423657_1_alg».proof.Proof.Points
import proofs.«116912_j59304908423657_1_alg».proof.Proof.StepValue
import proofs.«116912_j59304908423657_1_alg».proof.Proof.Blocks
import proofs.«116912_j59304908423657_1_alg».proof.Proof.Spec
import Idealize.ShloMosaic.PureOps.Ideal.Laws

noncomputable section

namespace Cert.KernelIdeal.Chain

open Cert.KernelIdeal Cert.KernelIdeal.Gen Cert.KernelIdeal.Cases Cert.KernelIdeal.Points
open Idealize.ShloMosaic Idealize.ShloMosaic.TcCoe Idealize.SL.Sem Idealize.ShloMosaic.ValueIdx Cert.Loss

variable (m : (ℓ : Loc nD τ sig) → Buf (Elt Ideal) ℓ)

/-- The loss of global row `g`, read off core `c`'s four argument arrays. -/
abbrev lossOf (c : Dev nD) (g : ℕ) : EReal :=
  lossAt (m ((c : Thread nD τ).loc main_arg0)) (m ((c : Thread nD τ).loc main_arg1))
    (m ((c : Thread nD τ).loc main_arg2)) (m ((c : Thread nD τ).loc main_arg3)) g

/-- The losses of the true rows of block `k`. -/
def blockSum (c : Dev nD) (k : ℕ) : EReal :=
  ∑ q ∈ Finset.range 10240, (if k * 10240 + q < 1000000 then lossOf m c (k * 10240 + q) else 0)

/-- The first global row of point `t`'s block, as the kernel's word, is `t · 10240` — decided over the grid. -/
theorem rowBase_eq : ∀ t : Fin cfg0.N, rowBase (grid0.coords t) = BitVec.ofNat 32 (t.val * 10240) :=
  (by decide +kernel : ∀ t : Fin grid0.N, rowBase (grid0.coords t) = BitVec.ofNat 32 (t.val * 10240))

/-- The zero block a core's first step stores is zero. -/
theorem zero_block (j : S1x1x1.Idx) : k0_pay2 (F := Ideal) j = 0 := by
  unfold k0_pay2
  simp only [shapeCast_self, broadcast_apply]
  exact Ideal.ofBits_zero_f32

/-- The step at point `t` adds block `t`'s sum to the accumulator's entry. -/
theorem stepAt_apply (c : Dev nD) (t : Fin cfg0.N) (acc : FVec Ideal S1x1x1 .f32) (j : S1x1x1.Idx) :
    stepAt m c t acc j = acc j + blockSum m c t.val := by
  have hN : t.val < 98 := lt_of_lt_of_eq t.isLt (show cfg0.N = 98 from N_0)
  refine (StepValue.step_apply (grid0.coords t) t.val hN (rowBase_eq t) (iblk m c 0 t) (iblk m c 1 t) (iblk m c 2 t)
    (iblk m c 3 t) acc j).trans ?_
  unfold blockSum
  refine congrArg (acc j + ·) (Eq.trans (Finset.sum_congr rfl fun q _ => ?_)
    (Fin.sum_univ_eq_sum_range (fun q => if t.val * 10240 + q < 1000000 then lossOf m c (t.val * 10240 + q) else 0) 10240))
  show _ = if t.val * 10240 + q.val < 1000000 then lossOf m c (t.val * 10240 + q.val) else 0
  by_cases h : t.val * 10240 + q.val < 1000000
  · rw [if_pos h, if_pos h]
    show _ = lossAt _ _ _ _ _
    unfold lossAt
    rw [dif_pos h, Blocks.in0 m c t q h, Blocks.in1 m c t q h, Blocks.in2 m c t q h]
    exact congrArg _ (funext fun s => Blocks.in3 m c t q s h)
  · rw [if_neg h, if_neg h]

/-- The accumulator's entry after point `n` (zero past the grid, where no point is). -/
def accAt (c : Dev nD) (j : S1x1x1.Idx) (n : ℕ) : EReal :=
  if h : n < cfg0.N then (outsAt0 m c n h).2 j else 0

theorem accAt_first (c : Dev nD) (j : S1x1x1.Idx) (n : ℕ) (h : n < 98) (h0 : n % 49 = 0) :
    accAt m c j n = blockSum m c n := by
  have hN : n < cfg0.N := lt_of_lt_of_eq h (show cfg0.N = 98 from N_0).symm
  unfold accAt
  rw [dif_pos hN]
  refine (congrFun (acc_first m c ⟨n, hN⟩ h0) j).trans ((stepAt_apply m c ⟨n, hN⟩ k0_pay2 j).trans ?_)
  rw [zero_block, zero_add]

theorem accAt_next (c : Dev nD) (j : S1x1x1.Idx) (n : ℕ) (h : n < 98) (h0 : n % 49 ≠ 0) :
    accAt m c j n = accAt m c j (n - 1) + blockSum m c n := by
  have hN : n < cfg0.N := lt_of_lt_of_eq h (show cfg0.N = 98 from N_0).symm
  have hN' : n - 1 < cfg0.N := Nat.lt_of_le_of_lt (Nat.sub_le _ _) hN
  unfold accAt
  rw [dif_pos hN, dif_pos hN']
  by_cases h1 : n % 49 = 48
  · exact (congrFun (acc_last m c ⟨n, hN⟩ h1) j).trans (stepAt_apply m c ⟨n, hN⟩ _ j)
  · exact (congrFun (acc_middle m c ⟨n, hN⟩ h0 h1) j).trans (stepAt_apply m c ⟨n, hN⟩ _ j)

/-- After point `n` the accumulator holds the block sums since its core's first point. -/
theorem accAt_closed (c : Dev nD) (j : S1x1x1.Idx) (n : ℕ) (h : n < 98) :
    accAt m c j n = ∑ k ∈ Finset.Ico (n / 49 * 49) (n + 1), blockSum m c k :=
  restart_chain (accAt m c j) (blockSum m c) 98 (accAt_first m c j) (accAt_next m c j) n h

/-- At a core's last point `t` the output block's entry is that core's 49 block sums. -/
theorem out_closed (c : Dev nD) (t : Fin cfg0.N) (h1 : t.val % 49 = 48) (j : S1x1x1.Idx) :
    (outsAt0 m c t.val t.isLt).1 j = ∑ k ∈ Finset.Ico (t.val / 49 * 49) (t.val / 49 * 49 + 49), blockSum m c k := by
  have hN : t.val < 98 := lt_of_lt_of_eq t.isLt (show cfg0.N = 98 from N_0)
  have e : (outsAt0 m c t.val t.isLt).1 j = accAt m c j t.val := by
    unfold accAt
    rw [dif_pos t.isLt, out_last m c t h1, acc_last m c t h1]
  rw [e, accAt_closed m c j t.val hN, show t.val + 1 = t.val / 49 * 49 + 49 by omega]

end Cert.KernelIdeal.Chain

end
-- ==== Proof.Final.lean ====
/-
  The kernel's result at the ideal values.

  The [2, 1, 1] output array is written back twice — at each core's last step — and so ends holding, at core `a`'s entry,
  the sums of blocks `49 a … 49 a + 48`. After the region the host adds the two entries from zero and divides by 10⁶.
  The 98 block sums are the losses of all 10⁶ true rows, so the result is the mean loss of the specification.
-/
import proofs.«116912_j59304908423657_1_alg».proof.Proof.Chain
import Idealize.ShloMosaic.Lib.StableHlo.Run
import Idealize.ShloMosaic.Lib.Tactic
import Idealize.ShloMosaic.Lib.Pipeline.Value
import Idealize.ShloMosaic.PureOps.Ideal.Laws

noncomputable section

namespace Cert.KernelIdeal.Final

open Cert.KernelIdeal Cert.KernelIdeal.Gen Cert.KernelIdeal.Chain
open Idealize.ShloMosaic Idealize.ShloMosaic.TcCoe Idealize.SL.Sem Idealize.ShloMosaic.StableHlo
open Idealize.ShloMosaic.ValueIdx Cert.Loss
open Idealize.ShloMosaic.Pipeline (Dat)

variable (m : (ℓ : Loc nD τ sig) → Buf (Elt Ideal) ℓ) (ρ : Dev nD → PrngReg)

/-- Core `a`'s total: the sums of its 49 blocks, at entry `(a, 0, 0)` of the output array. -/
def partials (c : Dev nD) : S2x1x1.Idx → EReal :=
  fun i => ∑ k ∈ Finset.Ico ((i 0).val * 49) ((i 0).val * 49 + 49), blockSum m c k

/-- What a core's last point writes back is that core's entry of `partials`. -/
theorem flushed_eq (c : Dev nD) (t : Fin cfg0.N) (hf : (cfg0.win 4).flush t = true) :
    (dats m 0 c).flushed 4 t = ((cfg0.win 4).blk t).view.read (Elt Ideal) (partials m c) := by
  have h48 : t.val % 49 = 48 := (flush0_4 t).mp hf
  show (cfg0.win 4).cut (grid0.coords t) ((dats m 0 c).after 4 t) = _
  rw [after0_4]
  funext j
  show (outsAt0 m c t.val t.isLt).1 j = partials m c (((cfg0.win 4).blk t).view.emb j)
  rw [out_closed m c t h48 j]
  unfold partials
  have e : ((((cfg0.win 4).blk t).view.emb j) 0).val = t.val / 49 := by
    show win0_4.index t (0 : Fin 3) * 1 + 1 * (j 0).val = t.val / 49
    have hj : (j 0).val < 1 := (j 0).isLt
    rw [(Blocks.idx_facts t).2.2.2.2.2.1]; omega
  rw [e]

/-- An index of the output array is in point `t`'s block iff each coordinate is in the block's range. -/
theorem mem_blk (t : Fin cfg0.N) (i : S2x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v4).slice (win0_4.rect t)).set ↔ _
  rw [View.set_slice_whole, Rect.mem_set_unit]
  exact Iff.rfl

/-- Every entry of the output array is written back by its core's last point. -/
theorem cover (i : S2x1x1.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have hN : (i 0).val * 49 + 48 < cfg0.N := by rw [show cfg0.N = 98 from N_0]; omega
  refine ⟨⟨(i 0).val * 49 + 48, hN⟩, (flush0_4 _).mpr (by show ((i 0).val * 49 + 48) % 49 = 48; omega), ?_⟩
  rw [mem_blk]
  obtain ⟨-, -, -, -, -, e0, e1, e2⟩ := Blocks.idx_facts ⟨(i 0).val * 49 + 48, hN⟩
  have e0' : win0_4.index ⟨(i 0).val * 49 + 48, hN⟩ (0 : Fin 3) = ((i 0).val * 49 + 48) / 49 := e0
  intro a
  match a with
  | ⟨0, _⟩ =>
    show win0_4.index ⟨(i 0).val * 49 + 48, hN⟩ (0 : Fin 3) * 1 ≤ (i 0).val
      ∧ (i 0).val < win0_4.index ⟨(i 0).val * 49 + 48, hN⟩ (0 : Fin 3) * 1 + 1
    rw [e0']; omega
  | ⟨1, _⟩ =>
    show win0_4.index ⟨(i 0).val * 49 + 48, hN⟩ (1 : Fin 3) * 1 ≤ (i 1).val
      ∧ (i 1).val < win0_4.index ⟨(i 0).val * 49 + 48, hN⟩ (1 : Fin 3) * 1 + 1
    rw [e1]; omega
  | ⟨2, _⟩ =>
    show win0_4.index ⟨(i 0).val * 49 + 48, hN⟩ (2 : Fin 3) * 1 ≤ (i 2).val
      ∧ (i 2).val < win0_4.index ⟨(i 0).val * 49 + 48, hN⟩ (2 : Fin 3) * 1 + 1
    rw [e2]; omega

/-- So the output array ends holding the two per-core totals. -/
theorem final (c : Dev nD) : (dats m 0 c).arrAt 4 cfg0.N = partials m c :=
  (dats m 0 c).arrAt_eq_of_cover 4 (partials m c) (fun t hf => flushed_eq m c t hf) (cover)

/-- A [2, 1, 1] index set is its first coordinate's range. -/
def idxEquiv211 : S2x1x1.Idx ≃ Fin 2 where
  toFun i := i 0
  invFun a := ix3 a (0 : Fin 1) (0 : Fin 1)
  left_inv i := funext fun a => Fin.ext (by
    match a with
    | ⟨0, _⟩ => rfl
    | ⟨1, _⟩ => show 0 = (i 1).val; have : (i 1).val < 1 := (i 1).isLt; omega
    | ⟨2, _⟩ => show 0 = (i 2).val; have : (i 2).val < 1 := (i 2).isLt; omega)
  right_inv _ := rfl

/-- The two per-core totals add up to the losses of all 10⁶ rows. -/
theorem sum_partials (c : Dev nD) : ∑ i : S2x1x1.Idx, partials m c i = ∑ g ∈ Finset.range 1000000, lossOf m c g := by
  rw [← Equiv.sum_comp idxEquiv211.symm (partials m c)]
  refine Eq.trans (Finset.sum_congr rfl fun a _ => ?_)
    ((Fin.sum_univ_eq_sum_range (fun a => ∑ k ∈ Finset.Ico (a * 49) (a * 49 + 49), blockSum m c k) 2).trans
      ((two_cores (blockSum m c)).trans (blocks_total (lossOf m c))))
  rfl

/-- The host's tail: the two entries added from zero and divided by 10⁶ — the mean loss. -/
theorem tail_value (c : Dev nD) :
    Pipeline.afterTail₀ cfgs (dats m) 0 (V0 m) [hostOps1] c main_v6
      = fun _ => meanLoss (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  rw [(Pipeline.withArrays_arr spec0 launch0.win.arr_inj c _ _ 4).trans (final m c)]
  funext i
  show Ideal.div (Host.reduceAdd (F := Ideal) (partials m c) (constant (F := Ideal) S_ .f32 0x00000000#32)
    reducesTo_S2x1x1_S_d0_1_2 h_S_ i) (Ideal.ofBits .f32 0x49742400#32) = _
  simp only [Host.reduceAdd, Ideal.hostReduceAdd_def]
  rw [Ideal.hostReduceAdd_total reducesTo_S2x1x1_S_d0_1_2 (fun b => b.elim0), sum_partials]
  show Ideal.div (Ideal.ofBits .f32 0x00000000#32 + _) _ = _
  rw [Ideal.ofBits_zero_f32, zero_add]
  rfl

/-- The run, read: the result at the mean loss, the four arguments unchanged. -/
theorem run : θ_run defs (onTc (τ := τ) (main (F := Ideal))) ⟨m, fun _ => 0, ρ⟩ fun r => ∀ c : Dev nD,
      r.2.mem ((c.tc : Thread nD τ).loc main_v6)
        = (fun _ => meanLoss (m ((c : Thread nD τ).loc main_arg0)) (m ((c : Thread nD τ).loc main_arg1))
            (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  A Monte-Carlo binary cross-entropy loss: the kernel against its reference, over the extended reals.

  Both programs compute the mean, over 10⁶ rows, of the row's loss

      -(t · max (log p) (-100) + (1 - t) · max (log (1 + (-p))) (-100)),     p = (∑ₖ σ(l + s · n k)) / 100

  (Proof/Spec.lean). The reference does it in one pass (Proof/RefStages.lean reads its operations one by one).
  The kernel pads the rows to 98 blocks of 10240, and at each of 2 × 49 grid points adds the block's losses — each
  multiplied by 1 on a true row and 0 on a padding row — into a per-core accumulator that restarts at each core's
  first step and is copied out at its last; the host adds the two per-core totals and divides by 10⁶. The per-row
  functions agree entry by entry (the sigmoid is `1 / (1 + e⁻ˣ)` on every extended real, `0 - x = -x`, the maximum
  is symmetric), and the two groupings of the sum agree because addition of extended reals is commutative and
  associative and `x · 1 = x`, `x · 0 = 0` hold for every `x`: no finiteness of the inputs is needed.

  Proof/BlockLoss.lean, Mask.lean and StepValue.lean read one grid point's step; Cases.lean and Points.lean name what
  each point leaves; Chain.lean closes the accumulation by induction on the point; Blocks.lean reads the input blocks
  through the padding; Final.lean reads the output array and the host's tail.
-/
import proofs.«116912_j59304908423657_1_alg».proof.Defs
import proofs.«116912_j59304908423657_1_alg».proof.Proof.Gen.Kernel
import proofs.«116912_j59304908423657_1_alg».proof.Proof.Gen.Kernel.Frame
import proofs.«116912_j59304908423657_1_alg».proof.Proof.Gen.KernelIdeal
import proofs.«116912_j59304908423657_1_alg».proof.Proof.Gen.KernelIdeal.Frame
import proofs.«116912_j59304908423657_1_alg».proof.Proof.Gen.ReferenceIdeal
import proofs.«116912_j59304908423657_1_alg».proof.Proof.Gen.ReferenceIdeal.Run
import proofs.«116912_j59304908423657_1_alg».proof.Proof.Gen.ReferenceIdeal.Read
import proofs.«116912_j59304908423657_1_alg».proof.Proof.Gen.Pre_finite_inputs
import proofs.«116912_j59304908423657_1_alg».proof.Proof.RefStages
import proofs.«116912_j59304908423657_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the mean loss of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefStages.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
